-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x28x28 : Shape := ⟨3, ![65536, 28, 28]⟩
abbrev S1024x784 : Shape := ⟨2, ![1024, 784]⟩
abbrev S1024 : Shape := ⟨1, ![1024]⟩
abbrev S1024x1024 : Shape := ⟨2, ![1024, 1024]⟩
abbrev S10x1024 : Shape := ⟨2, ![10, 1024]⟩
abbrev S10 : Shape := ⟨1, ![10]⟩
abbrev S_ : Shape := ⟨0, ![]⟩

class Facts : Prop where
  bcast_S_S65536x28x28 : S_.BroadcastsInDim S65536x28x28 (![] : Fin 0 → Fin S65536x28x28.rank)
  reducesTo_S65536x28x28_S_d0_1_2 : S65536x28x28.ReducesTo [0, 1, 2] S_
  h_S_ : 0 < S_.numel
  bcast_S_S1024x784 : S_.BroadcastsInDim S1024x784 (![] : Fin 0 → Fin S1024x784.rank)
  reducesTo_S1024x784_S_d0_1 : S1024x784.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S10x1024 : S_.BroadcastsInDim S10x1024 (![] : Fin 0 → Fin S10x1024.rank)
  reducesTo_S10x1024_S_d0_1 : S10x1024.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg7 : FVec F S1024x1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  main_v38

def fn_part1 {F : FTy → Type} [FloatOps F] (main_arg4 : FVec F S1024 .f32) (main_arg5 : FVec F S10x1024 .f32) (main_arg6 : FVec F S10 .f32) (main_arg7 : FVec F S1024x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S10x1024 .f32 := Host.absf main_arg5
  let main_cst_8 : FVec F S_ .f32 := constant S_ .f32 0x7F800000#32
  let main_v25 : FVec F S10x1024 .f32 := broadcastInDim S10x1024 ![] bcast_S_S10x1024 main_cst_8
  let main_v26 : IVec S10x1024 1 := cmpf .olt main_v24 main_v25
  let main_c_9 : IVec S_ 1 := constantI S_ 1 1#1
  let main_v27 : IVec S_ 1 := (fun x v => Host.reduce IntOp.andi x v reducesTo_S10x1024_S_d0_1 h_S_) main_v26 main_c_9
  let main_v28 : IVec S_ 1 := andi main_v23 main_v27
  let main_v29 : FVec F S10 .f32 := Host.absf main_arg6
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  fn_part2 (F := F) main_arg7 main_v33

def fn {F : FTy → Type} [FloatOps F] (main_arg0 : FVec F S65536x28x28 .f32) (main_arg1 : FVec F S1024x784 .f32) (main_arg2 : FVec F S1024 .f32) (main_arg3 : FVec F S1024x1024 .f32) (main_arg4 : FVec F S1024 .f32) (main_arg5 : FVec F S10x1024 .f32) (main_arg6 : FVec F S10 .f32) (main_arg7 : FVec F S1024x1024 .f32) : IVec S_ 1 :=
  let main_v0 : FVec F S65536x28x28 .f32 := Host.absf main_arg0
  let main_cst : FVec F S_ .f32 := constant S_ .f32 0x7F800000#32
  let main_v1 : FVec F S65536x28x28 .f32 := broadcastInDim S65536x28x28 ![] bcast_S_S65536x28x28 main_cst
  let main_v2 : IVec S65536x28x28 1 := cmpf .olt main_v0 main_v1
  let main_c : IVec S_ 1 := constantI S_ 1 1#1
  let main_v3 : IVec S_ 1 := (fun x v => Host.reduce IntOp.andi x v reducesTo_S65536x28x28_S_d0_1_2 h_S_) main_v2 main_c
  let main_v4 : FVec F S1024x784 .f32 := Host.absf main_arg1
  let main_cst_0 : FVec F S_ .f32 := constant S_ .f32 0x7F800000#32
  let main_v5 : FVec F S1024x784 .f32 := broadcastInDim S1024x784 ![] bcast_S_S1024x784 main_cst_0
  let main_v6 : IVec S1024x784 1 := cmpf .olt main_v4 main_v5
  let main_c_1 : IVec S_ 1 := constantI S_ 1 1#1
  let main_v7 : IVec S_ 1 := (fun x v => Host.reduce IntOp.andi x v reducesTo_S1024x784_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_v13 main_v16
-- ==== Kernel.lean ====
abbrev S65536x28x28 : Shape := ⟨3, ![65536, 28, 28]⟩
abbrev S1024x784 : Shape := ⟨2, ![1024, 784]⟩
abbrev S1024 : Shape := ⟨1, ![1024]⟩
abbrev S1024x1024 : Shape := ⟨2, ![1024, 1024]⟩
abbrev S10x1024 : Shape := ⟨2, ![10, 1024]⟩
abbrev S10 : Shape := ⟨1, ![10]⟩
abbrev S65536x784 : Shape := ⟨2, ![65536, 784]⟩
abbrev S1x1024 : Shape := ⟨2, ![1, 1024]⟩
abbrev S1x10 : Shape := ⟨2, ![1, 10]⟩
abbrev S65536x10 : Shape := ⟨2, ![65536, 10]⟩
abbrev S1024x10 : Shape := ⟨2, ![1024, 10]⟩
abbrev S1024x1 : Shape := ⟨2, ![1024, 1]⟩

abbrev nBuf : Space → Nat
  | .hbm => 17
  | .vmem => 10
  | .smem => 0
  | _ => 0

abbrev bufTy : (tb : Table) → Fin (tcTables nBuf tb) → BufTy
  | .hbm, ⟨0, _⟩ => ⟨S65536x28x28, .f32⟩
  | .hbm, ⟨1, _⟩ => ⟨S1024x784, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S10x1024, .f32⟩
  | .hbm, ⟨6, _⟩ => ⟨S10, .f32⟩
  | .hbm, ⟨7, _⟩ => ⟨S1024x1024, .f32⟩
  | .hbm, ⟨8, _⟩ => ⟨S65536x784, .f32⟩
  | .hbm, ⟨9, _⟩ => ⟨S1x1024, .f32⟩
  | .hbm, ⟨10, _⟩ => ⟨S1x1024, .f32⟩
  | .hbm, ⟨11, _⟩ => ⟨S1x10, .f32⟩
  | .hbm, ⟨12, _⟩ => ⟨S1024x784, .bf16⟩
  | .hbm, ⟨13, _⟩ => ⟨S1024x1024, .f32⟩
  | .hbm, ⟨14, _⟩ => ⟨S1024x1024, .bf16⟩
  | .hbm, ⟨15, _⟩ => ⟨S10x1024, .bf16⟩
  | .hbm, ⟨16, _⟩ => ⟨S65536x10, .f32⟩
  | .local _ .vmem, ⟨0, _⟩ => ⟨S1024x784, .f32⟩
  | .local _ .vmem, ⟨1, _⟩ => ⟨S1024x784, .f32⟩
  | .local _ .vmem, ⟨2, _⟩ => ⟨S1024x784, .bf16⟩
  | .local _ .vmem, ⟨3, _⟩ => ⟨S1x1024, .f32⟩
  | .local _ .vmem, ⟨4, _⟩ => ⟨S1024x1024, .bf16⟩
  | .local _ .vmem, ⟨5, _⟩ => ⟨S1x1024, .f32⟩
  | .local _ .vmem, ⟨6, _⟩ => ⟨S10x1024, .bf16⟩
  | .local _ .vmem, ⟨7, _⟩ => ⟨S1x10, .f32⟩
  | .local _ .vmem, ⟨8, _⟩ => ⟨S1024x10, .f32⟩
  | .local _ .vmem, ⟨9, _⟩ => ⟨S1024x10, .f32⟩
  | _, _ => ⟨S65536x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x784 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S10x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x10 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x10 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S65536x28x28_S65536x784 : S65536x28x28.ShapeCasts S65536x784
  shapeCasts_S1024_S1x1024 : S1024.ShapeCasts S1x1024
  shapeCasts_S10_S1x10 : S10.ShapeCasts S1x10
  bitsLt_bf16_f32 : FTy.bits .bf16 < FTy.bits .f32
  inb_S1024x784_S1024x784_0_0 : ∀ a, (![0, 0] : Fin 2 → Nat) a + S1024x784.size a ≤ S1024x784.size a
  h_S1024x784 : 0 < S1024x784.numel
  shapeCasts_S1024x784_S1024x784 : S1024x784.ShapeCasts S1024x784
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S10x1024_S10x1024_0_0 : ∀ a, (![0, 0] : Fin 2 → Nat) a + S10x1024.size a ≤ S10x1024.size a
  h_S10x1024 : 0 < S10x1024.numel
  shapeCasts_S10x1024_S10x1024 : S10x1024.ShapeCasts S10x1024
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S1024x10 : S1x10.Broadcasts S1024x10
  reduces_S1024x10_S1024 : S1024x10.Reduces [1] S1024
  shapeCasts_S1024_S1024x1 : S1024.ShapeCasts S1024x1
  broadcasts_S1024x1_S1024x10 : S1024x1.Broadcasts S1024x10
  inb_S1024x10_S1024x10_0_0 : ∀ a, (![0, 0] : Fin 2 → Nat) a + S1024x10.size a ≤ S1024x10.size a
  h_S1024x10 : 0 < S1024x10.numel
  dot_S1024x784_S1024x784_S1024x1024_1_1_0_0_n_n_wf : DotDims.WF S1024x784 S1024x784 S1024x1024 [1] [1] [0] [0] [] []
  dot_S1024x1024_S1024x1024_S1024x1024_1_1_0_0_n_n_wf : DotDims.WF S1024x1024 S1024x1024 S1024x1024 [1] [1] [0] [0] [] []
  dot_S1024x1024_S10x1024_S1024x10_1_1_0_0_n_n_wf : DotDims.WF S1024x1024 S10x1024 S1024x10 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x784.size a ≤ S65536x784.size a
  hwx0_0 : ∀ i : grid0.Coords, EltTy.bits .f32 = 32 ∨ (Rect.block (s := S65536x784) S1024x784.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x784.size a ≤ S1024x784.size a
  hwx0_1 : ∀ i : grid0.Coords, EltTy.bits .bf16 = 32 ∨ (Rect.block (s := S1024x784) S1024x784.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S10x1024.size a ≤ S10x1024.size a
  hwx0_5 : ∀ i : grid0.Coords, EltTy.bits .bf16 = 32 ∨ (Rect.block (s := S10x1024) S10x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x10.size a ≤ S1x10.size a
  hwx0_6 : ∀ i : grid0.Coords, EltTy.bits .f32 = 32 ∨ (Rect.block (s := S1x10) S1x10.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x10.size a ≤ S65536x10.size a
  hwx0_7 : ∀ i : grid0.Coords, EltTy.bits .f32 = 32 ∨ (Rect.block (s := S65536x10) S1024x10.size (cc0_transform_7 i) (hinb0_7 i)).WholeWords (EltTy.packing .f32)

variable [Facts₀]

def dot_S1024x784_S1024x784_S1024x1024_1_1_0_0_n_n : DotDims S1024x784 S1024x784 S1024x1024 where
  lhsContracting := [1]
  rhsContracting := [1]
  lhsNonContracting := [0]
  rhsNonContracting := [0]
  lhsBatch := []
  rhsBatch := []
  wf := dot_S1024x784_S1024x784_S1024x1024_1_1_0_0_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S1024x1024_S10x1024_S1024x10_1_1_0_0_n_n : DotDims S1024x1024 S10x1024 S1024x10 where
  lhsContracting := [1]
  rhsContracting := [1]
  lhsNonContracting := [0]
  rhsNonContracting := [0]
  lhsBatch := []
  rhsBatch := []
  wf := dot_S1024x1024_S10x1024_S1024x10_1_1_0_0_n_n_wf

abbrev win0_0 : Pipeline.Window sig grid0 :=
  Pipeline.Window.ofSpec (Memref.whole main_v0) S1024x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x784.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S10x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x10.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S1024x10.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S65536x28x28 : Shape := ⟨3, ![65536, 28, 28]⟩
abbrev S1024x784 : Shape := ⟨2, ![1024, 784]⟩
abbrev S1024 : Shape := ⟨1, ![1024]⟩
abbrev S1024x1024 : Shape := ⟨2, ![1024, 1024]⟩
abbrev S10x1024 : Shape := ⟨2, ![10, 1024]⟩
abbrev S10 : Shape := ⟨1, ![10]⟩
abbrev S65536x784 : Shape := ⟨2, ![65536, 784]⟩
abbrev S784x1024 : Shape := ⟨2, ![784, 1024]⟩
abbrev S65536x1024 : Shape := ⟨2, ![65536, 1024]⟩
abbrev S1x1024 : Shape := ⟨2, ![1, 1024]⟩
abbrev S_ : Shape := ⟨0, ![]⟩
abbrev S1024x10 : Shape := ⟨2, ![1024, 10]⟩
abbrev S65536x10 : Shape := ⟨2, ![65536, 10]⟩
abbrev S1x10 : Shape := ⟨2, ![1, 10]⟩
abbrev S65536 : Shape := ⟨1, ![65536]⟩
abbrev S65536x1 : Shape := ⟨2, ![65536, 1]⟩

abbrev nBuf : Space → Nat
  | .hbm => 45
  | .vmem => 0
  | .smem => 0
  | _ => 0

abbrev bufTy : (tb : Table) → Fin (tcTables nBuf tb) → BufTy
  | .hbm, ⟨0, _⟩ => ⟨S65536x28x28, .f32⟩
  | .hbm, ⟨1, _⟩ => ⟨S1024x784, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S10x1024, .f32⟩
  | .hbm, ⟨6, _⟩ => ⟨S10, .f32⟩
  | .hbm, ⟨7, _⟩ => ⟨S1024x1024, .f32⟩
  | .hbm, ⟨8, _⟩ => ⟨S65536x784, .f32⟩
  | .hbm, ⟨9, _⟩ => ⟨S784x1024, .f32⟩
  | .hbm, ⟨10, _⟩ => ⟨S65536x1024, .f32⟩
  | .hbm, ⟨11, _⟩ => ⟨S1x1024, .f32⟩
  | .hbm, ⟨12, _⟩ => ⟨S65536x1024, .f32⟩
  | .hbm, ⟨13, _⟩ => ⟨S65536x1024, .f32⟩
  | .hbm, ⟨14, _⟩ => ⟨S_, .f32⟩
  | .hbm, ⟨15, _⟩ => ⟨S65536x1024, .f32⟩
  | .hbm, ⟨16, _⟩ => ⟨S65536x1024, .f32⟩
  | .hbm, ⟨17, _⟩ => ⟨S1024x1024, .f32⟩
  | .hbm, ⟨18, _⟩ => ⟨S1024x1024, .f32⟩
  | .hbm, ⟨19, _⟩ => ⟨S65536x1024, .f32⟩
  | .hbm, ⟨20, _⟩ => ⟨S1x1024, .f32⟩
  | .hbm, ⟨21, _⟩ => ⟨S65536x1024, .f32⟩
  | .hbm, ⟨22, _⟩ => ⟨S65536x1024, .f32⟩
  | .hbm, ⟨23, _⟩ => ⟨S_, .f32⟩
  | .hbm, ⟨24, _⟩ => ⟨S65536x1024, .f32⟩
  | .hbm, ⟨25, _⟩ => ⟨S65536x1024, .f32⟩
  | .hbm, ⟨26, _⟩ => ⟨S1024x10, .f32⟩
  | .hbm, ⟨27, _⟩ => ⟨S65536x10, .f32⟩
  | .hbm, ⟨28, _⟩ => ⟨S1x10, .f32⟩
  | .hbm, ⟨29, _⟩ => ⟨S65536x10, .f32⟩
  | .hbm, ⟨30, _⟩ => ⟨S65536x10, .f32⟩
  | .hbm, ⟨31, _⟩ => ⟨S_, .f32⟩
  | .hbm, ⟨32, _⟩ => ⟨S65536, .f32⟩
  | .hbm, ⟨33, _⟩ => ⟨S_, .f32⟩
  | .hbm, ⟨34, _⟩ => ⟨S65536, .f32⟩
  | .hbm, ⟨35, _⟩ => ⟨S65536, .f32⟩
  | .hbm, ⟨36, _⟩ => ⟨S65536x1, .f32⟩
  | .hbm, ⟨37, _⟩ => ⟨S65536x10, .f32⟩
  | .hbm, ⟨38, _⟩ => ⟨S65536x10, .f32⟩
  | .hbm, ⟨39, _⟩ => ⟨S65536x10, .f32⟩
  | .hbm, ⟨40, _⟩ => ⟨S_, .f32⟩
  | .hbm, ⟨41, _⟩ => ⟨S65536, .f32⟩
  | .hbm, ⟨42, _⟩ => ⟨S65536x1, .f32⟩
  | .hbm, ⟨43, _⟩ => ⟨S65536x10, .f32⟩
  | .hbm, ⟨44, _⟩ => ⟨S65536x10, .f32⟩
  | _, _ => ⟨S65536x28x28, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_call0_cst : Ref sig .tc := ⟨.hbm, 14, rfl⟩
abbrev main_call0_v0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_call1_cst : Ref sig .tc := ⟨.hbm, 23, rfl⟩
abbrev main_call1_v0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst : Ref sig .tc := ⟨.hbm, 31, rfl⟩
abbrev main_v19 : Ref sig .tc := ⟨.hbm, 32, rfl⟩
abbrev main_cst_0 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_1 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]

class Facts₀ : Prop where
  shapeCasts_S65536x28x28_S65536x784 : S65536x28x28.ShapeCasts S65536x784
  transposes_S1024x784_S784x1024_1_0 : S1024x784.Transposes [1, 0] S784x1024
  bcast_S1024_S1x1024_1 : S1024.BroadcastsInDim S1x1024 (![1] : Fin 1 → Fin S1x1024.rank)
  bcast_S1x1024_S65536x1024_0_1 : S1x1024.BroadcastsInDim S65536x1024 (![0, 1] : Fin 2 → Fin S65536x1024.rank)
  bcast_S_S65536x1024 : S_.BroadcastsInDim S65536x1024 (![] : Fin 0 → Fin S65536x1024.rank)
  transposes_S1024x1024_S1024x1024_1_0 : S1024x1024.Transposes [1, 0] S1024x1024
  transposes_S10x1024_S1024x10_1_0 : S10x1024.Transposes [1, 0] S1024x10
  bcast_S10_S1x10_1 : S10.BroadcastsInDim S1x10 (![1] : Fin 1 → Fin S1x10.rank)
  bcast_S1x10_S65536x10_0_1 : S1x10.BroadcastsInDim S65536x10 (![0, 1] : Fin 2 → Fin S65536x10.rank)
  reducesTo_S65536x10_S65536_d1 : S65536x10.ReducesTo [1] S65536
  h_S_ : 0 < S_.numel
  bcast_S_S65536 : S_.BroadcastsInDim S65536 (![] : Fin 0 → Fin S65536.rank)
  bcast_S65536_S65536x1_0 : S65536.BroadcastsInDim S65536x1 (![0] : Fin 1 → Fin S65536x1.rank)
  bcast_S65536x1_S65536x10_0_1 : S65536x1.BroadcastsInDim S65536x10 (![0, 1] : Fin 2 → Fin S65536x10.rank)
  dot_S65536x784_S784x1024_S65536x1024_1_0_0_1_n_n_wf : DotDims.WF S65536x784 S784x1024 S65536x1024 [1] [0] [0] [1] [] []
  dot_S65536x1024_S1024x1024_S65536x1024_1_0_0_1_n_n_wf : DotDims.WF S65536x1024 S1024x1024 S65536x1024 [1] [0] [0] [1] [] []
  dot_S65536x1024_S1024x10_S65536x10_1_0_0_1_n_n_wf : DotDims.WF S65536x1024 S1024x10 S65536x10 [1] [0] [0] [1] [] []

variable [Facts₀]

def dot_S65536x784_S784x1024_S65536x1024_1_0_0_1_n_n : DotDims S65536x784 S784x1024 S65536x1024 where
  lhsContracting := [1]
  rhsContracting := [0]
  lhsNonContracting := [0]
  rhsNonContracting := [1]
  lhsBatch := []
  rhsBatch := []
  wf := dot_S65536x784_S784x1024_S65536x1024_1_0_0_1_n_n_wf
def dot_S65536x1024_S1024x1024_S65536x1024_1_0_0_1_n_n : DotDims S65536x1024 S1024x1024 S65536x1024 where
  lhsContracting := [1]
  rhsContracting := [0]
  lhsNonContracting := [0]
  rhsNonContracting := [1]
  lhsBatch := []
  rhsBatch := []
  wf := dot_S65536x1024_S1024x1024_S65536x1024_1_0_0_1_n_n_wf
def dot_S65536x1024_S1024x10_S65536x10_1_0_0_1_n_n : DotDims S65536x1024 S1024x10 S65536x10 where
  lhsContracting := [1]
  rhsContracting := [0]
  lhsNonContracting := [0]
  rhsNonContracting := [1]
  lhsBatch := []
  rhsBatch := []
  wf := dot_S65536x1024_S1024x10_S65536x10_1_0_0_1_n_n_wf

class Facts : Prop extends Facts₀ where

variable [Facts]
-- ==== Proof.RowNet.lean ====
/-
  The function both programs compute, one input row at a time.

  An input row `v` of 784 numbers passes through two dense layers with a floor (`h ↦ max (W·h + b) z`, entry by
  entry), a third dense layer without the floor that yields ten class scores, and a softmax of the ten scores
  taken from their peak: the row's largest score is subtracted from every score, the differences are
  exponentiated, and each exponential is divided by the sum of the ten.

  Every sum here is a finite sum over the extended reals, and the two programs add the same products in the same
  roles, so no law beyond `0 + s = s` and `max lo (peak lo s) = peak lo s` is needed to identify them: neither
  distributivity nor cancellation is used, and nothing has to be finite.

  `G` is the whole result array: row `R` of the result is `classProbs` of row `R` of the flattened images, the
  second layer's weights being the entrywise product `Ws · mask`.
-/
import Idealize.ShloMosaic.PureOps.Ideal.Laws
import Idealize.ShloMosaic.Lib.ValueIdx

noncomputable section

namespace Cert.RowNet

open Idealize.ShloMosaic Idealize.ShloMosaic.ValueIdx

/-- A dense layer with a floor: entry `j` is `max (∑ k, v k · W j k + b j) z`. -/
def floorLayer {K N : ℕ} (W : Fin N → Fin K → EReal) (b : Fin N → EReal) (z : EReal) (v : Fin K → EReal) (j : Fin N) : EReal :=
  max ((∑ k : Fin K, v k * W j k) + b j) z

/-- A dense layer: entry `j` is `∑ k, v k · W j k + b j`. -/
def scoreLayer {K N : ℕ} (W : Fin N → Fin K → EReal) (b : Fin N → EReal) (v : Fin K → EReal) (j : Fin N) : EReal :=
  (∑ k : Fin K, v k * W j k) + b j

/-- The largest of the scores, starting from `lo`. -/
def peak {N : ℕ} (lo : EReal) (s : Fin N → EReal) : EReal := (Finset.univ : Finset (Fin N)).fold max lo s

/-- The peak is at least its starting value, so taking the maximum with it again changes nothing. -/
theorem max_peak {N : ℕ} (lo : EReal) (s : Fin N → EReal) : max lo (peak lo s) = peak lo s :=
  max_eq_right ((Finset.le_fold_max lo).mpr (Or.inl le_rfl))

/-- A score's exponential after the peak is subtracted. -/
def expFromPeak {N : ℕ} (lo : EReal) (s : Fin N → EReal) (o : Fin N) : EReal := Ideal.exp (s o - peak lo s)

/-- The softmax of the scores: each exponential over the sum of all of them. -/
def softmaxFromPeak {N : ℕ} (lo : EReal) (s : Fin N → EReal) (o : Fin N) : EReal :=
  Ideal.div (expFromPeak lo s o) (∑ o' : Fin N, expFromPeak lo s o')

/-- The ten class probabilities of one input row. -/
def classProbs (W1 : Fin 1024 → Fin 784 → EReal) (b1 : Fin 1024 → EReal) (Wm : Fin 1024 → Fin 1024 → EReal) (bs : Fin 1024 → EReal)
    (W2 : Fin 10 → Fin 1024 → EReal) (b2 : Fin 10 → EReal) (z lo : EReal) (v : Fin 784 → EReal) : Fin 10 → EReal :=
  softmaxFromPeak lo (scoreLayer W2 b2 (floorLayer Wm bs z (floorLayer W1 b1 z v)))

/-- The floor of the two hidden layers: the value of the f32 word `0x00000000`. -/
abbrev floorLit : EReal := Ideal.ofBits .f32 0x00000000#32
/-- Where the peak starts: the value of the f32 word `0xFF800000`. -/
abbrev lowLit : EReal := Ideal.ofBits .f32 0xFF800000#32

/-- Entry `k` of image `R` flattened row by row: pixel `(k / 28, k % 28)`. -/
def pixel (x : (⟨3, ![65536, 28, 28]⟩ : Shape).Idx → EReal) (R : Fin 65536) (k : Fin 784) : EReal :=
  x (ix3 R (⟨k.val / 28, by have := k.isLt; omega⟩ : Fin 28) (⟨k.val % 28, by omega⟩ : Fin 28))

section
variable (x : (⟨3, ![65536, 28, 28]⟩ : Shape).Idx → EReal) (W1 : (⟨2, ![1024, 784]⟩ : Shape).Idx → EReal)
  (b1 : (⟨1, ![1024]⟩ : Shape).Idx → EReal) (Ws : (⟨2, ![1024, 1024]⟩ : Shape).Idx → EReal)
  (bs : (⟨1, ![1024]⟩ : Shape).Idx → EReal) (W2 : (⟨2, ![10, 1024]⟩ : Shape).Idx → EReal)
  (b2 : (⟨1, ![10]⟩ : Shape).Idx → EReal) (mask : (⟨2, ![1024, 1024]⟩ : Shape).Idx → EReal)

/-- Class `o`'s probability for image `R`, from the argument arrays. -/
def rowProbs (R : Fin 65536) (o : Fin 10) : EReal :=
  classProbs (fun j k => W1 (ix2 j k)) (fun j => b1 (ix1 j)) (fun j k => Ws (ix2 j k) * mask (ix2 j k)) (fun j => bs (ix1 j))
    (fun c k => W2 (ix2 c k)) (fun c => b2 (ix1 c)) floorLit lowLit (pixel x R) o

/-- The result array as one function of the argument arrays. -/
def G : (⟨2, ![65536, 10]⟩ : Shape).Idx → EReal := fun i => rowProbs x W1 b1 Ws bs W2 b2 mask (i 0) (i 1)

theorem G_apply (R : Fin 65536) (o : Fin 10) :
    G x W1 b1 Ws bs W2 b2 mask (ix2 R o) = rowProbs x W1 b1 Ws bs W2 b2 mask R o := rfl
end

end Cert.RowNet

end
-- ==== Proof.LibHostLaneMax.lean ====
/-
  The host's max-reduction of a rank-2 array along its lanes, read at coordinates, over the extended reals.

  A one-operand reduction of an `[a, b]` array along axis 1 with `max` as its body leaves a vector of length `a`
  whose element `i` is the maximum of row `i`, started from the initial value. The library states this over
  `Shape.Reduces.lift` (the result index with the reduced coordinate inserted); here the inserted index is written
  out as `ix2 i k`, so that the row's entries are the operand at plain coordinates and can be rewritten one by one.
-/
import Idealize.ShloMosaic.PureOps.Ideal.Laws
import Idealize.ShloMosaic.Lib.ValueIdx

namespace Cert.LibHostLaneMax

open Idealize.ShloMosaic Idealize.ShloMosaic.ValueIdx

/-- Row `i`'s maximum: the host's lane max-reduction at `i` is the fold of `max` over row `i`, from the initial value. -/
theorem hostLaneMax_apply {a b : ℕ} {u : Shape} (x : (⟨2, ![a, b]⟩ : Shape).Idx → EReal) (init : u.Idx → EReal)
    (h' : (⟨2, ![a, b]⟩ : Shape).ReducesTo [1] ⟨1, ![a]⟩) (h : (⟨2, ![a, b]⟩ : Shape).Reduces [1] ⟨1, ![a]⟩)
    (hu : 0 < u.numel) (i : Fin a) :
    Host.reduce (FloatOps.maximumf (F := Ideal) (φ := .f32)) x init h' hu (ix1 i)
      = (Finset.univ : Finset (Fin b)).fold max (init (Shape.Idx.first hu)) (fun k => x (ix2 i k)) := by
  refine (Host.reduce_eq_fold_single (FloatOps.maximumf (F := Ideal) (φ := .f32)) x init h' h hu (ix1 i)).trans ?_
  refine congrArg (fun f => (Finset.univ : Finset (Fin b)).fold max (init (Shape.Idx.first hu)) f) ?_
  funext k
  refine congrArg x ?_
  funext c; apply Fin.ext
  match c with
  | ⟨0, _⟩ => rfl
  | ⟨1, _⟩ => rfl

end Cert.LibHostLaneMax
-- ==== Proof.RefRow.lean ====
/-
  The reference computes `RowNet.G`.

  The reference's program is read one operation at a time (the generated read-at-an-index lemmas), at an index
  given by coordinates: row `R` of the batch and a column. Each dense layer's entry `(R, j)` is a sum over `k` of
  the previous layer's entry `(R, k)` times the weight `(j, k)` — the transposed weight array read at `(k, j)` —
  plus the bias `j`; the row's largest score is the fold of `max` over the ten scores, and taking the maximum with
  the starting value once more does not change it; the sum of the exponentials starts from the word `0x00000000`,
  which is `0`. So entry `(R, o)` of the result is `RowNet.rowProbs … R o`.
-/
import proofs.«160024_j60687887893042_2_alg».proof.Proof.Gen.ReferenceIdeal.Read
import proofs.«160024_j60687887893042_2_alg».proof.Proof.RowNet
import proofs.«160024_j60687887893042_2_alg».proof.Proof.LibHostLaneMax

noncomputable section

namespace Cert.RefRow

open Idealize.ShloMosaic Idealize.ShloMosaic.ValueIdx Cert.ReferenceIdeal Cert.ReferenceIdeal.Gen Cert.ReferenceIdeal.Read Cert.RowNet

/-- Two indices of a rank-1 array are equal when their coordinate is. -/
local macro "coords1" : tactic => `(tactic| (funext a; apply Fin.ext; match a with | ⟨0, _⟩ => rfl))
/-- Two indices of a rank-2 array are equal when their two coordinates are. -/
local macro "coords2" : tactic => `(tactic| (funext a; apply Fin.ext; match a with | ⟨0, _⟩ => rfl | ⟨1, _⟩ => rfl))

variable (x0 : (⟨S65536x28x28, .f32⟩ : BufTy).Contents (Elt Ideal)) (x1 : (⟨S1024x784, .f32⟩ : BufTy).Contents (Elt Ideal))
  (x2 : (⟨S1024, .f32⟩ : BufTy).Contents (Elt Ideal)) (x3 : (⟨S1024x1024, .f32⟩ : BufTy).Contents (Elt Ideal))
  (x4 : (⟨S1024, .f32⟩ : BufTy).Contents (Elt Ideal)) (x5 : (⟨S10x1024, .f32⟩ : BufTy).Contents (Elt Ideal))
  (x6 : (⟨S10, .f32⟩ : BufTy).Contents (Elt Ideal)) (x7 : (⟨S1024x1024, .f32⟩ : BufTy).Contents (Elt Ideal))

/-- Row `R` after the first hidden layer. -/
abbrev hid1 (R : Fin 65536) : Fin 1024 → EReal :=
  floorLayer (fun j k => x1 (ix2 j k)) (fun j => x2 (ix1 j)) floorLit (pixel x0 R)
/-- Row `R` after the second hidden layer, whose weights are `Ws · mask` entry by entry. -/
abbrev hid2 (R : Fin 65536) : Fin 1024 → EReal :=
  floorLayer (fun j k => x3 (ix2 j k) * x7 (ix2 j k)) (fun j => x4 (ix1 j)) floorLit (hid1 x0 x1 x2 R)
/-- Row `R`'s ten class scores. -/
abbrev scores (R : Fin 65536) : Fin 10 → EReal :=
  scoreLayer (fun c k => x5 (ix2 c k)) (fun c => x6 (ix1 c)) (hid2 x0 x1 x2 x3 x4 x7 R)

/-- The reshape: entry `(R, k)` of the flattened images is pixel `(k / 28, k % 28)` of image `R`. -/
theorem flat_apply (R : Fin 65536) (k : Fin 784) : val_main_v0 (F := Ideal) x0 (ix2 R k) = pixel x0 R k := by
  rw [val_main_v0_apply]
  unfold pixel
  refine congrArg x0 ?_
  funext a; apply Fin.ext
  have hR := R.isLt
  have hk := k.isLt
  match a with
  | ⟨0, _⟩ => show (R.val * 784 + k.val) / 784 = R.val; omega
  | ⟨1, _⟩ => show (R.val * 784 + k.val) / 28 % 28 = k.val / 28; omega
  | ⟨2, _⟩ => show (R.val * 784 + k.val) % 28 = k.val % 28; omega

/-- The first hidden layer at `(R, j)`. -/
theorem hid1_apply (R : Fin 65536) (j : Fin 1024) : val_main_v6 (F := Ideal) x0 x1 x2 (ix2 R j) = hid1 x0 x1 x2 R j := by
  rw [val_main_v6_apply, val_main_v5_apply, val_main_v2_apply, val_main_v4_apply, val_main_v3_apply,
    val_main_call0_v0_apply, val_main_call0_cst_apply]
  unfold hid1 floorLayer
  refine congrArg₂ max (congrArg₂ (· + ·) (Finset.sum_congr rfl fun k _ => ?_) (congrArg x2 ?_)) rfl
  · rw [show lidx_main_v2 (ix2 R j) k = ix2 R k from by coords2, flat_apply, val_main_v1_apply,
      show idx_main_v1 (ridx_main_v2 (ix2 R j) k) = ix2 j k from by coords2]
  · coords1

/-- The second hidden layer at `(R, j)`. -/
theorem hid2_apply (R : Fin 65536) (j : Fin 1024) :
    val_main_v13 (F := Ideal) x0 x1 x2 x3 x4 x7 (ix2 R j) = hid2 x0 x1 x2 x3 x4 x7 R j := by
  rw [val_main_v13_apply, val_main_v12_apply, val_main_v9_apply, val_main_v11_apply, val_main_v10_apply,
    val_main_call1_v0_apply, val_main_call1_cst_apply]
  unfold hid2 floorLayer
  refine congrArg₂ max (congrArg₂ (· + ·) (Finset.sum_congr rfl fun k _ => ?_) (congrArg x4 ?_)) rfl
  · rw [show lidx_main_v9 (ix2 R j) k = ix2 R k from by coords2, hid1_apply, val_main_v8_apply, val_main_v7_apply,
      show idx_main_v8 (ridx_main_v9 (ix2 R j) k) = ix2 j k from by coords2]
    try rfl
  · coords1

/-- The class scores at `(R, o)`. -/
theorem scores_apply (R : Fin 65536) (o : Fin 10) :
    val_main_v18 (F := Ideal) x0 x1 x2 x3 x4 x5 x6 x7 (ix2 R o) = scores x0 x1 x2 x3 x4 x5 x6 x7 R o := by
  rw [val_main_v18_apply, val_main_v15_apply, val_main_v17_apply, val_main_v16_apply]
  unfold scores scoreLayer
  refine congrArg₂ (· + ·) (Finset.sum_congr rfl fun k _ => ?_) (congrArg x6 ?_)
  · rw [show lidx_main_v15 (ix2 R o) k = ix2 R k from by coords2, hid2_apply, val_main_v14_apply,
      show idx_main_v14 (ridx_main_v15 (ix2 R o) k) = ix2 o k from by coords2]
  · coords1

/-- The row's largest score: the max-reduction over the ten scores, and the maximum with its starting value again. -/
theorem peak_apply (R : Fin 65536) :
    val_main_v21 (F := Ideal) x0 x1 x2 x3 x4 x5 x6 x7 (ix1 R) = peak lowLit (scores x0 x1 x2 x3 x4 x5 x6 x7 R) := by
  have e : val_main_v19 (F := Ideal) x0 x1 x2 x3 x4 x5 x6 x7 (ix1 R) = peak lowLit (scores x0 x1 x2 x3 x4 x5 x6 x7 R) := by
    unfold val_main_v19
    refine (Cert.LibHostLaneMax.hostLaneMax_apply (a := 65536) (b := 10) (val_main_v18 (F := Ideal) x0 x1 x2 x3 x4 x5 x6 x7)
      (val_main_cst (F := Ideal)) reducesTo_S65536x10_S65536_d1 (by decide) h_S_ R).trans ?_
    unfold peak
    exact congrArg (fun f => (Finset.univ : Finset (Fin 10)).fold max lowLit f)
      (funext fun o => scores_apply x0 x1 x2 x3 x4 x5 x6 x7 R o)
  rw [val_main_v21_apply, val_main_v20_apply, val_main_cst_0_apply, e]
  exact max_peak lowLit _

/-- A score's exponential after the peak is subtracted, at `(R, o)`. -/
theorem exp_apply (R : Fin 65536) (o : Fin 10) :
    val_main_v25 (F := Ideal) x0 x1 x2 x3 x4 x5 x6 x7 (ix2 R o) = expFromPeak lowLit (scores x0 x1 x2 x3 x4 x5 x6 x7 R) o := by
  rw [val_main_v25_apply, val_main_v24_apply, val_main_v23_apply, val_main_v22_apply,
    show idx_main_v22 (idx_main_v23 (ix2 R o)) = ix1 R from by coords1, peak_apply, scores_apply]
  rfl

/-- The sum of the row's ten exponentials: the sum-reduction starts from `0`. -/
theorem den_apply (R : Fin 65536) :
    val_main_v26 (F := Ideal) x0 x1 x2 x3 x4 x5 x6 x7 (ix1 R) = ∑ o : Fin 10, expFromPeak lowLit (scores x0 x1 x2 x3 x4 x5 x6 x7 R) o := by
  rw [val_main_v26_apply]
  refine (congrArg₂ (· + ·) (show val_main_cst_1 (F := Ideal) (Shape.Idx.first h_S_) = 0 from Ideal.ofBits_zero_f32)
    (Finset.sum_congr rfl fun o _ => ?_)).trans (zero_add _)
  rw [show idx_main_v26 (ix1 R) o = ix2 R o from by coords2, exp_apply]

/-- THE REFERENCE IS `G`: its last stage, as a function of the argument arrays, is the row network applied row by row. -/
theorem stage_eq_G : val_main_v29 (F := Ideal) x0 x1 x2 x3 x4 x5 x6 x7 = G x0 x1 x2 x3 x4 x5 x6 x7 := by
  funext i
  obtain ⟨R, o, rfl⟩ : ∃ (R : Fin 65536) (o : Fin 10), i = ix2 R o := ⟨i 0, i 1, eq_ix2 i⟩
  rw [val_main_v29_apply, val_main_v28_apply, val_main_v27_apply,
    show idx_main_v27 (idx_main_v28 (ix2 R o)) = ix1 R from by coords1, exp_apply, den_apply, G_apply]
  rfl

end Cert.RefRow

end
-- ==== Proof.LibKeepdims.lean ====
/-
  Column forms of the keepdims layout operations, read at an index given by coordinates.

  A reduction over the lanes of a rank-2 value leaves a vector of length `a`; a kernel then re-lays it as a column
  `[a, 1]` (a shape cast) and spreads the column over `b` lanes (a broadcast). Element `(i, j)` of the spread
  column is element `i` of the vector, whatever `j` is. The row forms (`[a] → [1, a]`, `[1, b] → [a, b]`) are in
  the library (Lib/ValueLayout.lean); these are their transposed counterparts, in the same style: the parent lemma of
  Lib/Pipeline/Value.lean with both indices written `ixN …`.
-/
import Idealize.ShloMosaic.Lib.Pipeline.Value
import Idealize.ShloMosaic.Lib.ValueIdx
import Idealize.ShloMosaic.Lib.ValueLayout

namespace Cert.LibKeepdims

open Idealize.ShloMosaic Idealize.ShloMosaic.ValueIdx

variable {α : Type}

/-- A vector re-laid as a column: element `(i, u)` of the `[a, 1]` column is element `i` of the vector (the only
    value of the unit coordinate `u` is `0`, so the two row-major positions agree). -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column re-laid as a vector: element `i` of the vector is element `(i, 0)` of the `[a, 1]` column. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- ONE COLUMN BROADCAST over many lanes: element `(i, j)` of the `[a, b]` result is element `(i, 0)` of the column. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibKeepdims
-- ==== Proof.LibReduceRead.lean ====
/-
  One-axis reductions of a rank-2 value, read at coordinates, over the extended reals.

  A reduction of an `[a, b]` value along its lanes (axis 1) leaves a vector of length `a` whose element `i` is
  the sum (or the maximum) of row `i`; along its sublanes (axis 0) a vector of length `b` whose element `j` is the
  sum (or the maximum) of column `j`. The library states these over `Shape.Reduces.lift` (the result index with the
  reduced coordinate inserted); here the inserted index is written out as `ix2 i k` resp. `ix2 k j`, so that the
  terms of the sum are the operand at plain coordinates and can be rewritten one by one.
-/
import Idealize.ShloMosaic.PureOps.Ideal.Laws
import Idealize.ShloMosaic.Lib.ValueIdx

namespace Cert.LibReduceRead

open Idealize.ShloMosaic Idealize.ShloMosaic.ValueIdx

/-- Row `i`'s sum: the lane reduction of an `[a, b]` value at `i` is `∑ k, src (i, k)`. -/
theorem laneSum_apply {a b : ℕ} (src : FVec Ideal ⟨2, ![a, b]⟩ .f32) (acc : BitVec FTy.f32.bits)
    (h : (⟨2, ![a, b]⟩ : Shape).Reduces [1] ⟨1, ![a]⟩) (hφ : FKind.Formats .f32)
    (hacc : acc = FKind.add.neutral .f32 hφ) (i : Fin a) :
    multiReduction .add [1] ⟨1, ![a]⟩ src acc h hφ hacc (ix1 i) = ∑ k : Fin b, src (ix2 i k) := by
  refine (Ideal.multiReduction_add_single src acc h hφ hacc (ix1 i)).trans ?_
  refine Finset.sum_congr rfl fun k _ => congrArg src ?_
  funext c; apply Fin.ext
  match c with
  | ⟨0, _⟩ => rfl
  | ⟨1, _⟩ => rfl

/-- Column `j`'s sum: the sublane reduction of an `[a, b]` value at `j` is `∑ k, src (k, j)`. -/
theorem sublaneSum_apply {a b : ℕ} (src : FVec Ideal ⟨2, ![a, b]⟩ .f32) (acc : BitVec FTy.f32.bits)
    (h : (⟨2, ![a, b]⟩ : Shape).Reduces [0] ⟨1, ![b]⟩) (hφ : FKind.Formats .f32)
    (hacc : acc = FKind.add.neutral .f32 hφ) (j : Fin b) :
    multiReduction .add [0] ⟨1, ![b]⟩ src acc h hφ hacc (ix1 j) = ∑ k : Fin a, src (ix2 k j) := by
  refine (Ideal.multiReduction_add_single src acc h hφ hacc (ix1 j)).trans ?_
  refine Finset.sum_congr rfl fun k _ => congrArg src ?_
  funext c; apply Fin.ext
  match c with
  | ⟨0, _⟩ => rfl
  | ⟨1, _⟩ => rfl

/-- Row `i`'s maximum: the lane max-reduction at `i` is the fold of `max` over row `i`, from the accumulator's value. -/
theorem laneMax_apply {a b : ℕ} (src : FVec Ideal ⟨2, ![a, b]⟩ .f32) (acc : BitVec FTy.f32.bits)
    (h : (⟨2, ![a, b]⟩ : Shape).Reduces [1] ⟨1, ![a]⟩) (hφ : FKind.Formats .f32)
    (hacc : acc = FKind.maximumf.neutral .f32 hφ) (i : Fin a) :
    multiReduction .maximumf [1] ⟨1, ![a]⟩ src acc h hφ hacc (ix1 i)
      = (Finset.univ : Finset (Fin b)).fold max (FloatOps.ofBits (F := Ideal) .f32 acc) (fun k => src (ix2 i k)) := by
  refine (Ideal.multiReduction_maximumf_single src acc h hφ hacc (ix1 i)).trans ?_
  refine congrArg (fun f => (Finset.univ : Finset (Fin b)).fold max (FloatOps.ofBits (F := Ideal) .f32 acc) f) ?_
  funext k
  refine congrArg src ?_
  funext c; apply Fin.ext
  match c with
  | ⟨0, _⟩ => rfl
  | ⟨1, _⟩ => rfl

/-- Column `j`'s maximum: the sublane max-reduction at `j` is the fold of `max` over column `j`. -/
theorem sublaneMax_apply {a b : ℕ} (src : FVec Ideal ⟨2, ![a, b]⟩ .f32) (acc : BitVec FTy.f32.bits)
    (h : (⟨2, ![a, b]⟩ : Shape).Reduces [0] ⟨1, ![b]⟩) (hφ : FKind.Formats .f32)
    (hacc : acc = FKind.maximumf.neutral .f32 hφ) (j : Fin b) :
    multiReduction .maximumf [0] ⟨1, ![b]⟩ src acc h hφ hacc (ix1 j)
      = (Finset.univ : Finset (Fin a)).fold max (FloatOps.ofBits (F := Ideal) .f32 acc) (fun k => src (ix2 k j)) := by
  refine (Ideal.multiReduction_maximumf_single src acc h hφ hacc (ix1 j)).trans ?_
  refine congrArg (fun f => (Finset.univ : Finset (Fin a)).fold max (FloatOps.ofBits (F := Ideal) .f32 acc) f) ?_
  funext k
  refine congrArg src ?_
  funext c; apply Fin.ext
  match c with
  | ⟨0, _⟩ => rfl
  | ⟨1, _⟩ => rfl

end Cert.LibReduceRead
-- ==== Proof.LibMatmulNT.lean ====
/-
  A matrix product that contracts the LAST axis of both operands, accumulated into zero, read at coordinates.

  For `l : [M, K]` and `w : [N, K]` the product `l · wᵀ : [M, N]` has entry `(r, j)` equal to `∑ k, l (r, k) · w (j, k)`:
  the accumulator's zero drops out, and the contraction index, a one-axis multi-index, is re-indexed by its one
  coordinate. The dimension record enters through four coordinate facts (which operand coordinate is the output's row,
  which the output's column, which the contraction's coordinate); for a printed record each is one line.
-/
import Idealize.ShloMosaic.PureOps.Ideal.Laws
import Idealize.ShloMosaic.Lib.ValueIdx

namespace Cert.LibMatmulNT

open Idealize.ShloMosaic Idealize.ShloMosaic.ValueIdx

/-- Entry `(r, j)` of `l · wᵀ` accumulated into the zero splat is `∑ k, l (r, k) · w (j, k)`. -/
theorem matmulNT_zero_apply {M K N : ℕ} {φ₁ φ₂ : FTy} (D : DotDims ⟨2, ![M, K]⟩ ⟨2, ![N, K]⟩ ⟨2, ![M, N]⟩)
    (hr : D.contr.rank = 1) (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (i 1).val) (hr1 : ∀ i q, (D.rhsIdx i q 1).val = (q ⟨0, by omega⟩).val)
    (prec : Option ContractPrecision) (l : FVec Ideal ⟨2, ![M, K]⟩ φ₁) (w : FVec Ideal ⟨2, ![N, K]⟩ φ₂) (r : Fin M) (j : Fin N) :
    FloatOps.matmul D prec l w (constant (F := Ideal) ⟨2, ![M, N]⟩ .f32 0x00000000#32) (ix2 r j)
      = ∑ k : Fin K, l (ix2 r k) * w (ix2 j k) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 r j) ((contrEquiv1 D K hr hs).symm k) = ix2 r k := funext fun a => Fin.ext (by
    match a with
    | ⟨0, _⟩ => exact hl0 _ _
    | ⟨1, _⟩ => exact (hl1 _ _).trans hk)
  have er : D.rhsIdx (ix2 r j) ((contrEquiv1 D K hr hs).symm k) = ix2 j k := funext fun a => Fin.ext (by
    match a with
    | ⟨0, _⟩ => exact hr0 _ _
    | ⟨1, _⟩ => exact (hr1 _ _).trans hk)
  rw [el, er]

end Cert.LibMatmulNT
-- ==== Proof.BodyRow.lean ====
/-
  What the kernel body leaves in an output block, row by row.

  The body's exponentials (the generated payload `k0_pay2`) are four layers stacked: two dense layers with a floor,
  a dense layer giving the ten scores, and the exponential of each score minus its row's largest. Each layer is read
  here at an entry `(r, j)` of the block with the layer below it as a VARIABLE: a matrix product into a zero
  accumulator is the sum of products over the contracted coordinate; the bias row `[1, n]` broadcast over the block's
  rows is the bias at `j`; a change of float format is the identity on the extended reals; the lane maximum, re-laid
  as a column and spread over the lanes, is the fold of `max` over the row. The block's entry `(r, o)` — an
  exponential over the lane sum of the row's exponentials — is therefore `RowNet.classProbs` of the block's input row `r`.
-/
import proofs.«160024_j60687887893042_2_alg».proof.Proof.Gen.KernelIdeal.Value
import proofs.«160024_j60687887893042_2_alg».proof.Proof.RowNet
import proofs.«160024_j60687887893042_2_alg».proof.Proof.LibKeepdims
import proofs.«160024_j60687887893042_2_alg».proof.Proof.LibReduceRead
import proofs.«160024_j60687887893042_2_alg».proof.Proof.LibMatmulNT
import Idealize.ShloMosaic.Lib.ValueLayout
import Idealize.ShloMosaic.Lib.Pipeline.Value

noncomputable section

namespace Cert.BodyRow

open Cert.KernelIdeal Cert.KernelIdeal.Gen Idealize.ShloMosaic Idealize.ShloMosaic.ValueIdx Cert.RowNet

/-- Two indices of a rank-1 array are equal when their coordinate is. -/
local macro "coords1" : tactic => `(tactic| (funext a; apply Fin.ext; match a with | ⟨0, _⟩ => rfl))
/-- Two indices of a rank-2 array are equal when their two coordinates are. -/
local macro "coords2" : tactic => `(tactic| (funext a; apply Fin.ext; match a with | ⟨0, _⟩ => rfl | ⟨1, _⟩ => rfl))

/-! ## The three products' operand indices: row, column, contracted coordinate -/

theorem lhsA_row (i : _) (q : dot_S1024x784_S1024x784_S1024x1024_1_1_0_0_n_n.contr.Idx) : (dot_S1024x784_S1024x784_S1024x1024_1_1_0_0_n_n.lhsIdx i q 0).val = (i 0).val := by
  unfold DotDims.lhsIdx
  rw [dif_neg (show ¬(0 : Fin S1024x784.rank) ∈ dot_S1024x784_S1024x784_S1024x1024_1_1_0_0_n_n.lhsBatch by decide),
    dif_pos (show (0 : Fin S1024x784.rank) ∈ dot_S1024x784_S1024x784_S1024x1024_1_1_0_0_n_n.lhsNonContracting by decide)]
  rfl
theorem lhsA_contr (i : _) (q : dot_S1024x784_S1024x784_S1024x1024_1_1_0_0_n_n.contr.Idx) : (dot_S1024x784_S1024x784_S1024x1024_1_1_0_0_n_n.lhsIdx i q 1).val = (q ⟨0, by decide⟩).val :=
  dot_S1024x784_S1024x784_S1024x1024_1_1_0_0_n_n.lhsIdx_val_of_single rfl i q
theorem rhsA_row (i : _) (q : dot_S1024x784_S1024x784_S1024x1024_1_1_0_0_n_n.contr.Idx) : (dot_S1024x784_S1024x784_S1024x1024_1_1_0_0_n_n.rhsIdx i q 0).val = (i 1).val := by
  unfold DotDims.rhsIdx
  rw [dif_neg (show ¬(0 : Fin S1024x784.rank) ∈ dot_S1024x784_S1024x784_S1024x1024_1_1_0_0_n_n.rhsBatch by decide),
    dif_pos (show (0 : Fin S1024x784.rank) ∈ dot_S1024x784_S1024x784_S1024x1024_1_1_0_0_n_n.rhsNonContracting by decide)]
  rfl
theorem rhsA_contr (i : _) (q : dot_S1024x784_S1024x784_S1024x1024_1_1_0_0_n_n.contr.Idx) : (dot_S1024x784_S1024x784_S1024x1024_1_1_0_0_n_n.rhsIdx i q 1).val = (q ⟨0, by decide⟩).val :=
  dot_S1024x784_S1024x784_S1024x1024_1_1_0_0_n_n.rhsIdx_val_of_single rfl i q

theorem lhsB_row (i : _) (q : dot_S1024x1024_S1024x1024_S1024x1024_1_1_0_0_n_n.contr.Idx) : (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide),
    dif_pos (show (0 : Fin S1024x1024.rank) ∈ dot_S1024x1024_S1024x1024_S1024x1024_1_1_0_0_n_n.lhsNonContracting by decide)]
  rfl
theorem lhsB_contr (i : _) (q : dot_S1024x1024_S1024x1024_S1024x1024_1_1_0_0_n_n.contr.Idx) : (dot_S1024x1024_S1024x1024_S1024x1024_1_1_0_0_n_n.lhsIdx i q 1).val = (q ⟨0, by decide⟩).val :=
  dot_S1024x1024_S1024x1024_S1024x1024_1_1_0_0_n_n.lhsIdx_val_of_single rfl i q
theorem rhsB_row (i : _) (q : dot_S1024x1024_S1024x1024_S1024x1024_1_1_0_0_n_n.contr.Idx) : (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide),
    dif_pos (show (0 : Fin S1024x1024.rank) ∈ dot_S1024x1024_S1024x1024_S1024x1024_1_1_0_0_n_n.rhsNonContracting by decide)]
  rfl
theorem rhsB_contr (i : _) (q : dot_S1024x1024_S1024x1024_S1024x1024_1_1_0_0_n_n.contr.Idx) : (dot_S1024x1024_S1024x1024_S1024x1024_1_1_0_0_n_n.rhsIdx i q 1).val = (q ⟨0, by decide⟩).val :=
  dot_S1024x1024_S1024x1024_S1024x1024_1_1_0_0_n_n.rhsIdx_val_of_single rfl i q

theorem lhsC_row (i : _) (q : dot_S1024x1024_S10x1024_S1024x10_1_1_0_0_n_n.contr.Idx) : (dot_S1024x1024_S10x1024_S1024x10_1_1_0_0_n_n.lhsIdx i q 0).val = (i 0).val := by
  unfold DotDims.lhsIdx
  rw [dif_neg (show ¬(0 : Fin S1024x1024.rank) ∈ dot_S1024x1024_S10x1024_S1024x10_1_1_0_0_n_n.lhsBatch by decide),
    dif_pos (show (0 : Fin S1024x1024.rank) ∈ dot_S1024x1024_S10x1024_S1024x10_1_1_0_0_n_n.lhsNonContracting by decide)]
  rfl
theorem lhsC_contr (i : _) (q : dot_S1024x1024_S10x1024_S1024x10_1_1_0_0_n_n.contr.Idx) : (dot_S1024x1024_S10x1024_S1024x10_1_1_0_0_n_n.lhsIdx i q 1).val = (q ⟨0, by decide⟩).val :=
  dot_S1024x1024_S10x1024_S1024x10_1_1_0_0_n_n.lhsIdx_val_of_single rfl i q
theorem rhsC_row (i : _) (q : dot_S1024x1024_S10x1024_S1024x10_1_1_0_0_n_n.contr.Idx) : (dot_S1024x1024_S10x1024_S1024x10_1_1_0_0_n_n.rhsIdx i q 0).val = (i 1).val := by
  unfold DotDims.rhsIdx
  rw [dif_neg (show ¬(0 : Fin S10x1024.rank) ∈ dot_S1024x1024_S10x1024_S1024x10_1_1_0_0_n_n.rhsBatch by decide),
    dif_pos (show (0 : Fin S10x1024.rank) ∈ dot_S1024x1024_S10x1024_S1024x10_1_1_0_0_n_n.rhsNonContracting by decide)]
  rfl
theorem rhsC_contr (i : _) (q : dot_S1024x1024_S10x1024_S1024x10_1_1_0_0_n_n.contr.Idx) : (dot_S1024x1024_S10x1024_S1024x10_1_1_0_0_n_n.rhsIdx i q 1).val = (q ⟨0, by decide⟩).val :=
  dot_S1024x1024_S10x1024_S1024x10_1_1_0_0_n_n.rhsIdx_val_of_single rfl i q

/-! ## The layers, as the body spells them -/

/-- The first hidden layer of a block: the input block times the first weights, plus the bias row, floored. -/
def blockHid1 (P0 : Vec Ideal S1024x784 .f32) (P1 : Vec Ideal S1024x784 .bf16) (P2 : Vec Ideal S1x1024 .f32) : FVec Ideal S1024x1024 .f32 :=
  maximumf (addf (matmul dot_S1024x784_S1024x784_S1024x1024_1_1_0_0_n_n none (truncf .bf16 (shapeCast S1024x784 P0 shapeCasts_S1024x784_S1024x784) bitsLt_bf16_f32) (shapeCast S1024x784 P1 shapeCasts_S1024x784_S1024x784 : FVec Ideal S1024x784 .bf16) (constant (F := Ideal) S1024x1024 .f32 0x00000000#32)) (broadcastTo S1024x1024 (shapeCast S1x1024 P2 shapeCasts_S1x1024_S1x1024) broadcasts_S1x1024_S1024x1024)) (broadcast S1024x1024 (Scalar.ofBits (F := Ideal) .f32 0x00000000#32))

/-- The second hidden layer, from the first. -/
def blockHid2 (h1 : FVec Ideal S1024x1024 .f32) (P3 : Vec Ideal S1024x1024 .bf16) (P4 : Vec Ideal S1x1024 .f32) : FVec Ideal S1024x1024 .f32 :=
  maximumf (addf (matmul dot_S1024x1024_S1024x1024_S1024x1024_1_1_0_0_n_n none (truncf .bf16 h1 bitsLt_bf16_f32) (shapeCast S1024x1024 P3 shapeCasts_S1024x1024_S1024x1024 : FVec Ideal S1024x1024 .bf16) (constant (F := Ideal) S1024x1024 .f32 0x00000000#32)) (broadcastTo S1024x1024 (shapeCast S1x1024 P4 shapeCasts_S1x1024_S1x1024) broadcasts_S1x1024_S1024x1024)) (broadcast S1024x1024 (Scalar.ofBits (F := Ideal) .f32 0x00000000#32))

/-- The ten scores of each row, from the second hidden layer. -/
def blockScores (h2 : FVec Ideal S1024x1024 .f32) (P5 : Vec Ideal S10x1024 .bf16) (P6 : Vec Ideal S1x10 .f32) : FVec Ideal S1024x10 .f32 :=
  addf (matmul dot_S1024x1024_S10x1024_S1024x10_1_1_0_0_n_n none (truncf .bf16 h2 bitsLt_bf16_f32) (shapeCast S10x1024 P5 shapeCasts_S10x1024_S10x1024 : FVec Ideal S10x1024 .bf16) (constant (F := Ideal) S1024x10 .f32 0x00000000#32)) (broadcastTo S1024x10 (shapeCast S1x10 P6 shapeCasts_S1x10_S1x10) broadcasts_S1x10_S1024x10)

/-- Each score's exponential after its row's largest score is subtracted. -/
def blockExp (s : FVec Ideal S1024x10 .f32) : FVec Ideal S1024x10 .f32 :=
  exp (subf s (broadcastTo S1024x10 (shapeCast S1024x1 (multiReduction .maximumf [1] S1024 s 0xFF800000#32 reduces_S1024x10_S1024 (.inl rfl) rfl) shapeCasts_S1024_S1024x1) broadcasts_S1024x1_S1024x10))

/-- The body's payload is these four layers stacked. -/
theorem pay2_eq (P0 : Vec Ideal S1024x784 .f32) (P1 : Vec Ideal S1024x784 .bf16) (P2 : Vec Ideal S1x1024 .f32) (P3 : Vec Ideal S1024x1024 .bf16) (P4 : Vec Ideal S1x1024 .f32) (P5 : Vec Ideal S10x1024 .bf16) (P6 : Vec Ideal S1x10 .f32) :
    k0_pay2 (F := Ideal) P0 P1 P2 P3 P4 P5 P6 = blockExp (blockScores (blockHid2 (blockHid1 P0 P1 P2) P3 P4) P5 P6) := rfl

/-! ## Each layer at an entry -/

theorem blockHid1_apply (P0 : Vec Ideal S1024x784 .f32) (P1 : Vec Ideal S1024x784 .bf16) (P2 : Vec Ideal S1x1024 .f32) (r j : Fin 1024) :
    blockHid1 P0 P1 P2 (ix2 r j)
      = floorLayer (fun j k => P1 (ix2 j k)) (fun j => P2 (ix2 (0 : Fin 1) j)) floorLit (fun k => P0 (ix2 r k)) j := by
  unfold blockHid1 floorLayer
  rw [maximumf_apply, addf_apply]
  refine congrArg₂ max (congrArg₂ (· + ·) ?_ ?_) rfl
  · refine (Cert.LibMatmulNT.matmulNT_zero_apply dot_S1024x784_S1024x784_S1024x1024_1_1_0_0_n_n rfl rfl lhsA_row lhsA_contr rhsA_row rhsA_contr none _ _ r j).trans ?_
    rw [shapeCast_self, shapeCast_self]
    rfl
  · refine (broadcastTo_1b_ab_apply _ _ r j).trans ?_
    rw [shapeCast_self]

theorem blockHid2_apply (h1 : FVec Ideal S1024x1024 .f32) (P3 : Vec Ideal S1024x1024 .bf16) (P4 : Vec Ideal S1x1024 .f32) (r j : Fin 1024) :
    blockHid2 h1 P3 P4 (ix2 r j)
      = floorLayer (fun j k => P3 (ix2 j k)) (fun j => P4 (ix2 (0 : Fin 1) j)) floorLit (fun k => h1 (ix2 r k)) j := by
  unfold blockHid2 floorLayer
  rw [maximumf_apply, addf_apply]
  refine congrArg₂ max (congrArg₂ (· + ·) ?_ ?_) rfl
  · refine (Cert.LibMatmulNT.matmulNT_zero_apply dot_S1024x1024_S1024x1024_S1024x1024_1_1_0_0_n_n rfl rfl lhsB_row lhsB_contr rhsB_row rhsB_contr none _ _ r j).trans ?_
    rw [shapeCast_self]
    rfl
  · refine (broadcastTo_1b_ab_apply _ _ r j).trans ?_
    rw [shapeCast_self]

theorem blockScores_apply (h2 : FVec Ideal S1024x1024 .f32) (P5 : Vec Ideal S10x1024 .bf16) (P6 : Vec Ideal S1x10 .f32) (r : Fin 1024) (o : Fin 10) :
    blockScores h2 P5 P6 (ix2 r o)
      = scoreLayer (fun c k => P5 (ix2 c k)) (fun c => P6 (ix2 (0 : Fin 1) c)) (fun k => h2 (ix2 r k)) o := by
  unfold blockScores scoreLayer
  rw [addf_apply]
  refine congrArg₂ (· + ·) ?_ ?_
  · refine (Cert.LibMatmulNT.matmulNT_zero_apply dot_S1024x1024_S10x1024_S1024x10_1_1_0_0_n_n rfl rfl lhsC_row lhsC_contr rhsC_row rhsC_contr none _ _ r o).trans ?_
    rw [shapeCast_self]
    rfl
  · refine (broadcastTo_1b_ab_apply _ _ r o).trans ?_
    rw [shapeCast_self]

theorem blockExp_apply (s : FVec Ideal S1024x10 .f32) (r : Fin 1024) (o : Fin 10) :
    blockExp s (ix2 r o) = expFromPeak lowLit (fun c => s (ix2 r c)) o := by
  unfold blockExp expFromPeak peak
  refine congrArg (fun p => Ideal.exp (s (ix2 r o) - p)) ?_
  refine (Cert.LibKeepdims.broadcastTo_a1_ab_apply _ _ r o).trans ?_
  refine (Cert.LibKeepdims.shapeCast_a_a1_apply _ _ r (0 : Fin 1)).trans ?_
  exact Cert.LibReduceRead.laneMax_apply s _ _ _ _ r

/-! ## The block's entry -/

/-- Row `r`'s ten scores, from the loaded blocks. -/
abbrev rowScores (P0 : Vec Ideal S1024x784 .f32) (P1 : Vec Ideal S1024x784 .bf16) (P2 : Vec Ideal S1x1024 .f32) (P3 : Vec Ideal S1024x1024 .bf16) (P4 : Vec Ideal S1x1024 .f32) (P5 : Vec Ideal S10x1024 .bf16) (P6 : Vec Ideal S1x10 .f32) (r : Fin 1024) : Fin 10 → EReal :=
  scoreLayer (fun c k => P5 (ix2 c k)) (fun c => P6 (ix2 (0 : Fin 1) c))
    (floorLayer (fun j k => P3 (ix2 j k)) (fun j => P4 (ix2 (0 : Fin 1) j)) floorLit
      (floorLayer (fun j k => P1 (ix2 j k)) (fun j => P2 (ix2 (0 : Fin 1) j)) floorLit (fun k => P0 (ix2 r k))))

theorem rowScores_eq (P0 : Vec Ideal S1024x784 .f32) (P1 : Vec Ideal S1024x784 .bf16) (P2 : Vec Ideal S1x1024 .f32) (P3 : Vec Ideal S1024x1024 .bf16) (P4 : Vec Ideal S1x1024 .f32) (P5 : Vec Ideal S10x1024 .bf16) (P6 : Vec Ideal S1x10 .f32) (r : Fin 1024) :
    (fun c => blockScores (blockHid2 (blockHid1 P0 P1 P2) P3 P4) P5 P6 (ix2 r c)) = rowScores P0 P1 P2 P3 P4 P5 P6 r := by
  funext c
  rw [blockScores_apply]
  have e1 : (fun k => blockHid1 P0 P1 P2 (ix2 r k))
      = floorLayer (fun j k => P1 (ix2 j k)) (fun j => P2 (ix2 (0 : Fin 1) j)) floorLit (fun k => P0 (ix2 r k)) :=
    funext fun k => blockHid1_apply P0 P1 P2 r k
  have e2 : (fun k => blockHid2 (blockHid1 P0 P1 P2) P3 P4 (ix2 r k))
      = floorLayer (fun j k => P3 (ix2 j k)) (fun j => P4 (ix2 (0 : Fin 1) j)) floorLit
          (floorLayer (fun j k => P1 (ix2 j k)) (fun j => P2 (ix2 (0 : Fin 1) j)) floorLit (fun k => P0 (ix2 r k))) := by
    funext k
    rw [blockHid2_apply, e1]
  rw [e2]

/-- THE BLOCK, ENTRY BY ENTRY: what the body leaves at `(r, o)` is the row network applied to the input block's row `r`,
    with the weights and biases as loaded. -/
theorem block_row (P0 : Vec Ideal S1024x784 .f32) (P1 : Vec Ideal S1024x784 .bf16) (P2 : Vec Ideal S1x1024 .f32) (P3 : Vec Ideal S1024x1024 .bf16) (P4 : Vec Ideal S1x1024 .f32) (P5 : Vec Ideal S10x1024 .bf16) (P6 : Vec Ideal S1x10 .f32) (r : Fin 1024) (o : Fin 10) :
    Cert.KernelIdeal.Value.E7 (F := Ideal) P0 P1 P2 P3 P4 P5 P6 (ix2 r o)
      = classProbs (fun j k => P1 (ix2 j k)) (fun j => P2 (ix2 (0 : Fin 1) j)) (fun j k => P3 (ix2 j k)) (fun j => P4 (ix2 (0 : Fin 1) j))
          (fun c k => P5 (ix2 c k)) (fun c => P6 (ix2 (0 : Fin 1) c)) floorLit lowLit (fun k => P0 (ix2 r k)) o := by
  show Ideal.div (k0_pay2 (F := Ideal) P0 P1 P2 P3 P4 P5 P6 (Cert.KernelIdeal.Value.ix7_0 (ix2 r o)))
      (multiReduction .add [1] S1024 (k0_pay2 (F := Ideal) P0 P1 P2 P3 P4 P5 P6) 0x00000000#32 reduces_S1024x10_S1024 (.inl rfl) rfl
        (Cert.KernelIdeal.Value.ix7_1 (ix2 r o))) = _
  rw [show Cert.KernelIdeal.Value.ix7_0 (ix2 r o) = ix2 r o from by coords2,
    show Cert.KernelIdeal.Value.ix7_1 (ix2 r o) = ix1 r from by coords1, pay2_eq]
  unfold classProbs softmaxFromPeak
  have es := rowScores_eq P0 P1 P2 P3 P4 P5 P6 r
  refine congrArg₂ Ideal.div ?_ ?_
  · rw [blockExp_apply, es]
  · refine (Cert.LibReduceRead.laneSum_apply _ _ _ _ _ r).trans (Finset.sum_congr rfl fun c _ => ?_)
    rw [blockExp_apply, es]

end Cert.BodyRow

end
-- ==== Proof.BlockRead.lean ====
/-
  The kernel's input blocks as entries of the argument arrays.

  The call's seven operands are arrays the host operations before it wrote: the images flattened to `[65536, 784]`,
  the three bias vectors re-laid as one-row matrices, the first and third weight matrices with their float format
  changed (the identity on the extended reals), and the second weight matrix multiplied entry by entry with the mask.
  Over the 64 grid points the image operand's block at point `t` is rows `1024·t … 1024·t + 1023`, and every other
  operand's block is the whole array. So entry `(r, k)` of the image block at `t` is pixel `k` of image `1024·t + r`,
  and the weight and bias blocks read the argument arrays themselves.
-/
import proofs.«160024_j60687887893042_2_alg».proof.Proof.Gen.KernelIdeal.Value
import proofs.«160024_j60687887893042_2_alg».proof.Proof.RowNet
import Idealize.ShloMosaic.Lib.Pipeline.Value
import Idealize.ShloMosaic.Lib.StableHlo.Run
import Idealize.ShloMosaic.Lib.ValueLayout

noncomputable section

namespace Cert.BlockRead

open Cert.KernelIdeal Cert.KernelIdeal.Gen Idealize.ShloMosaic Idealize.ShloMosaic.TcCoe Idealize.SL.Sem
open Idealize.ShloMosaic.ValueIdx Idealize.ShloMosaic.StableHlo Cert.RowNet

variable (m : (ℓ : Loc nD τ sig) → Buf (Elt Ideal) ℓ)

/-- The second layer's weights as launched, as a function of a literal-shape index. -/
abbrev secondWeights (c : Dev nD) : S1024x1024.Idx → EReal := (m ((c : Thread nD τ).loc main_arg3))
/-- The mask as launched, as a function of a literal-shape index. -/
abbrev maskArray (c : Dev nD) : S1024x1024.Idx → EReal := (m ((c : Thread nD τ).loc main_arg7))

/-! ## Where each window's block sits, decided over the grid -/

/-- The image window and the result window move down one block of rows per grid point. -/
theorem moving_index : ∀ t : Fin cfg0.N,
    win0_0.index t (0 : Fin 2) = t.val ∧ win0_0.index t (1 : Fin 2) = 0
    ∧ win0_7.index t (0 : Fin 2) = t.val ∧ win0_7.index t (1 : Fin 2) = 0 :=
  (by decide +kernel : ∀ t : Fin grid0.N, _)

/-- The weight and bias windows stay on their one block. -/
theorem resident_index : ∀ t : Fin cfg0.N,
    (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0) :=
  (by decide +kernel : ∀ t : Fin grid0.N, _)

/-! ## What the host operations before the call wrote -/

theorem V_images (c : Dev nD) : (V m c main_v0 : S65536x784.Idx → EReal)
    = shapeCast S65536x784 (m ((c : Thread nD τ).loc main_arg0)) shapeCasts_S65536x28x28_S65536x784 := by
  dsimp only [V, hostOps0]; after_results; rfl
theorem V_bias1 (c : Dev nD) : (V m c main_v1 : S1x1024.Idx → EReal)
    = shapeCast S1x1024 (m ((c : Thread nD τ).loc main_arg2)) shapeCasts_S1024_S1x1024 := by
  dsimp only [V, hostOps0]; after_results; rfl
theorem V_bias2 (c : Dev nD) : (V m c main_v2 : S1x1024.Idx → EReal)
    = shapeCast S1x1024 (m ((c : Thread nD τ).loc main_arg4)) shapeCasts_S1024_S1x1024 := by
  dsimp only [V, hostOps0]; after_results; rfl
theorem V_bias3 (c : Dev nD) : (V m c main_v3 : S1x10.Idx → EReal)
    = shapeCast S1x10 (m ((c : Thread nD τ).loc main_arg6)) shapeCasts_S10_S1x10 := by
  dsimp only [V, hostOps0]; after_results; rfl
theorem V_weights1 (c : Dev nD) : (V m c main_v4 : S1024x784.Idx → EReal)
    = (truncf .bf16 ((m ((c : Thread nD τ).loc main_arg1)) : FVec Ideal S1024x784 .f32) bitsLt_bf16_f32 : FVec Ideal S1024x784 .bf16) := by
  dsimp only [V, hostOps0]; after_results
theorem V_weights2 (c : Dev nD) : (V m c main_v6 : S1024x1024.Idx → EReal)
    = (truncf .bf16 (mulf ((m ((c : Thread nD τ).loc main_arg3)) : FVec Ideal S1024x1024 .f32) ((m ((c : Thread nD τ).loc main_arg7)) : FVec Ideal S1024x1024 .f32)) bitsLt_bf16_f32 : FVec Ideal S1024x1024 .bf16) := by
  dsimp only [V, hostOps0]; after_results
theorem V_weights3 (c : Dev nD) : (V m c main_v7 : S10x1024.Idx → EReal)
    = (truncf .bf16 ((m ((c : Thread nD τ).loc main_arg5)) : FVec Ideal S10x1024 .f32) bitsLt_bf16_f32 : FVec Ideal S10x1024 .bf16) := by
  dsimp only [V, hostOps0]; after_results

/-! ## The reshape of the images, at coordinates -/

/-- Entry `(R, k)` of the flattened images is pixel `(k / 28, k % 28)` of image `R`: the two row-major positions agree. -/
theorem shapeCast_pixel (x : (⟨3, ![65536, 28, 28]⟩ : Shape).Idx → EReal)
    (h : (⟨3, ![65536, 28, 28]⟩ : Shape).ShapeCasts ⟨2, ![65536, 784]⟩) (R : Fin 65536) (k : Fin 784) :
    shapeCast ⟨2, ![65536, 784]⟩ x h (ix2 R k) = pixel x R k := by
  unfold pixel
  refine shapeCast_apply x h _ _ ?_
  rw [Shape.rowMajor_val_three, Shape.rowMajor_val_two]
  have hR := R.isLt
  have hk := k.isLt
  show (R.val * 28 + k.val / 28) * 28 + k.val % 28 = R.val * 784 + k.val
  omega

/-! ## Each block entry -/

/-- The image block at point `t`: entry `(r, k)` is pixel `k` of image `R = 1024·t + r`. -/
theorem image_block (c : Dev nD) (t : Fin cfg0.N) (r : Fin 1024) (k : Fin 784) (R : Fin 65536) (hR : R.val = 1024 * t.val + r.val) :
    (iblk m c 0 t : Vec Ideal S1024x784 .f32) (ix2 r k) = pixel (m ((c : Thread nD τ).loc main_arg0)) R k := by
  obtain ⟨h0, h1, -, -⟩ := moving_index t
  unfold iblk
  rw [View.read_apply]
  show V m c main_v0 (((cfg0.win 0).blk t).view.emb (ix2 r k)) = _
  have he : ((cfg0.win 0).blk t).view.emb (ix2 r k) = (ix2 R k : S65536x784.Idx) := by
    funext x; apply Fin.ext
    match x with
    | ⟨0, _⟩ => show win0_0.index t 0 * 1024 + 1 * r.val = R.val; rw [h0]; omega
    | ⟨1, _⟩ => show win0_0.index t 1 * 784 + 1 * k.val = k.val; rw [h1]; omega
  rw [he, V_images]
  exact shapeCast_pixel _ _ R k

/-- The first weights' block is the argument itself. -/
theorem weights1_block (c : Dev nD) (t : Fin cfg0.N) (j : Fin 1024) (k : Fin 784) :
    (iblk m c 1 t : Vec Ideal S1024x784 .bf16) (ix2 j k) = (m ((c : Thread nD τ).loc main_arg1)) (ix2 j k) := by
  obtain ⟨⟨h0, h1⟩, -⟩ := resident_index t
  unfold iblk
  rw [View.read_apply]
  show V m c main_v4 (((cfg0.win 1).blk t).view.emb (ix2 j k)) = _
  have he : ((cfg0.win 1).blk t).view.emb (ix2 j k) = (ix2 j k : S1024x784.Idx) := by
    funext x; apply Fin.ext
    match x with
    | ⟨0, _⟩ => show win0_1.index t 0 * 1024 + 1 * j.val = j.val; rw [h0]; omega
    | ⟨1, _⟩ => show win0_1.index t 1 * 784 + 1 * k.val = k.val; rw [h1]; omega
  rw [he, V_weights1]
  rfl

/-- The first bias row's block is the argument vector. -/
theorem bias1_block (c : Dev nD) (t : Fin cfg0.N) (j : Fin 1024) :
    (iblk m c 2 t : Vec Ideal S1x1024 .f32) (ix2 (0 : Fin 1) j) = (m ((c : Thread nD τ).loc main_arg2)) (ix1 j) := by
  obtain ⟨-, ⟨h0, h1⟩, -⟩ := resident_index t
  unfold iblk
  rw [View.read_apply]
  show V m c main_v1 (((cfg0.win 2).blk t).view.emb (ix2 (0 : Fin 1) j)) = _
  have he : ((cfg0.win 2).blk t).view.emb (ix2 (0 : Fin 1) j) = (ix2 (0 : Fin 1) j : S1x1024.Idx) := by
    funext x; apply Fin.ext
    match x with
    | ⟨0, _⟩ => show win0_2.index t 0 * 1 + 1 * (0 : Fin 1).val = (0 : Fin 1).val; rw [h0]; omega
    | ⟨1, _⟩ => show win0_2.index t 1 * 1024 + 1 * j.val = j.val; rw [h1]; omega
  rw [he, V_bias1]
  exact shapeCast_a_1a_apply _ _ (0 : Fin 1) j

/-- The second weights' block is `Ws · mask`, entry by entry. -/
theorem weights2_block (c : Dev nD) (t : Fin cfg0.N) (j k : Fin 1024) :
    (iblk m c 3 t : Vec Ideal S1024x1024 .bf16) (ix2 j k) = secondWeights m c (ix2 j k) * maskArray m c (ix2 j k) := by
  obtain ⟨-, -, ⟨h0, h1⟩, -⟩ := resident_index t
  unfold iblk
  rw [View.read_apply]
  show V m c main_v6 (((cfg0.win 3).blk t).view.emb (ix2 j k)) = _
  have he : ((cfg0.win 3).blk t).view.emb (ix2 j k) = (ix2 j k : S1024x1024.Idx) := by
    funext x; apply Fin.ext
    match x with
    | ⟨0, _⟩ => show win0_3.index t 0 * 1024 + 1 * j.val = j.val; rw [h0]; omega
    | ⟨1, _⟩ => show win0_3.index t 1 * 1024 + 1 * k.val = k.val; rw [h1]; omega
  rw [he, V_weights2]
  rfl

/-- The second bias row's block is the argument vector. -/
theorem bias2_block (c : Dev nD) (t : Fin cfg0.N) (j : Fin 1024) :
    (iblk m c 4 t : Vec Ideal S1x1024 .f32) (ix2 (0 : Fin 1) j) = (m ((c : Thread nD τ).loc main_arg4)) (ix1 j) := by
  obtain ⟨-, -, -, ⟨h0, h1⟩, -⟩ := resident_index t
  unfold iblk
  rw [View.read_apply]
  show V m c main_v2 (((cfg0.win 4).blk t).view.emb (ix2 (0 : Fin 1) j)) = _
  have he : ((cfg0.win 4).blk t).view.emb (ix2 (0 : Fin 1) j) = (ix2 (0 : Fin 1) j : S1x1024.Idx) := by
    funext x; apply Fin.ext
    match x with
    | ⟨0, _⟩ => show win0_4.index t 0 * 1 + 1 * (0 : Fin 1).val = (0 : Fin 1).val; rw [h0]; omega
    | ⟨1, _⟩ => show win0_4.index t 1 * 1024 + 1 * j.val = j.val; rw [h1]; omega
  rw [he, V_bias2]
  exact shapeCast_a_1a_apply _ _ (0 : Fin 1) j

/-- The third weights' block is the argument itself. -/
theorem weights3_block (c : Dev nD) (t : Fin cfg0.N) (o : Fin 10) (k : Fin 1024) :
    (iblk m c 5 t : Vec Ideal S10x1024 .bf16) (ix2 o k) = (m ((c : Thread nD τ).loc main_arg5)) (ix2 o k) := by
  obtain ⟨-, -, -, -, ⟨h0, h1⟩, -⟩ := resident_index t
  unfold iblk
  rw [View.read_apply]
  show V m c main_v7 (((cfg0.win 5).blk t).view.emb (ix2 o k)) = _
  have he : ((cfg0.win 5).blk t).view.emb (ix2 o k) = (ix2 o k : S10x1024.Idx) := by
    funext x; apply Fin.ext
    match x with
    | ⟨0, _⟩ => show win0_5.index t 0 * 10 + 1 * o.val = o.val; rw [h0]; omega
    | ⟨1, _⟩ => show win0_5.index t 1 * 1024 + 1 * k.val = k.val; rw [h1]; omega
  rw [he, V_weights3]
  rfl

/-- The third bias row's block is the argument vector. -/
theorem bias3_block (c : Dev nD) (t : Fin cfg0.N) (o : Fin 10) :
    (iblk m c 6 t : Vec Ideal S1x10 .f32) (ix2 (0 : Fin 1) o) = (m ((c : Thread nD τ).loc main_arg6)) (ix1 o) := by
  obtain ⟨-, -, -, -, -, h0, h1⟩ := resident_index t
  unfold iblk
  rw [View.read_apply]
  show V m c main_v3 (((cfg0.win 6).blk t).view.emb (ix2 (0 : Fin 1) o)) = _
  have he : ((cfg0.win 6).blk t).view.emb (ix2 (0 : Fin 1) o) = (ix2 (0 : Fin 1) o : S1x10.Idx) := by
    funext x; apply Fin.ext
    match x with
    | ⟨0, _⟩ => show win0_6.index t 0 * 1 + 1 * (0 : Fin 1).val = (0 : Fin 1).val; rw [h0]; omega
    | ⟨1, _⟩ => show win0_6.index t 1 * 10 + 1 * o.val = o.val; rw [h1]; omega
  rw [he, V_bias3]
  exact shapeCast_a_1a_apply _ _ (0 : Fin 1) o

end Cert.BlockRead

end
-- ==== Proof.KernelRun.lean ====
/-
  The kernel's result array after the run is `RowNet.G` of the argument arrays.

  At grid point `t` the body leaves, at entry `(r, o)` of the output block, the row network applied to row `r` of the
  image block at `t` with the weights as loaded (the body, row by row); that block row is image `1024·t + r`, and the
  loaded weights are the argument arrays (the block reads); and the block is written back to rows
  `1024·t … 1024·t + 1023` of the result. So what point `t` writes back is block `t` of `G`. Row `R` of the result lies
  in the block of point `R / 1024`, so the 64 blocks cover the array, and the array ends holding `G`.
-/
import proofs.«160024_j60687887893042_2_alg».proof.Proof.Gen.KernelIdeal.Value
import proofs.«160024_j60687887893042_2_alg».proof.Proof.RowNet
import proofs.«160024_j60687887893042_2_alg».proof.Proof.BodyRow
import proofs.«160024_j60687887893042_2_alg».proof.Proof.BlockRead
import Idealize.ShloMosaic.Lib.Pipeline.Value

noncomputable section

namespace Cert.KernelRun

open Cert.KernelIdeal Cert.KernelIdeal.Gen Idealize.ShloMosaic Idealize.ShloMosaic.TcCoe Idealize.SL.Sem
open Idealize.ShloMosaic.Pipeline (Dat)
open Idealize.ShloMosaic.ValueIdx Cert.RowNet

/-- Two indices of a rank-2 array are equal when their two coordinates are. -/
local macro "coords2" : tactic => `(tactic| (funext a; apply Fin.ext; match a with | ⟨0, _⟩ => rfl | ⟨1, _⟩ => rfl))

theorem zero_offsets : (![0, 0] : Fin 2 → Nat) = fun _ => 0 := funext fun a => by fin_cases a <;> rfl

/-- What the body leaves in the output block, at `(r, o)`, for any loaded blocks: its one store covers the block, each
    load reads its whole operand block, and the stored value is the block's entry of the body, row by row. -/
theorem out_row (P0 : Vec Ideal S1024x784 .f32) (P1 : Vec Ideal S1024x784 .bf16) (P2 : Vec Ideal S1x1024 .f32) (P3 : Vec Ideal S1024x1024 .bf16) (P4 : Vec Ideal S1x1024 .f32) (P5 : Vec Ideal S10x1024 .bf16) (P6 : Vec Ideal S1x10 .f32) (r : Fin 1024) (o : Fin 10) :
    out0_7 (F := Ideal) P0 P1 P2 P3 P4 P5 P6 (ix2 r o)
      = classProbs (fun j k => P1 (ix2 j k)) (fun j => P2 (ix2 (0 : Fin 1) j)) (fun j k => P3 (ix2 j k)) (fun j => P4 (ix2 (0 : Fin 1) j))
          (fun c k => P5 (ix2 c k)) (fun c => P6 (ix2 (0 : Fin 1) c)) floorLit lowLit (fun k => P0 (ix2 r k)) o := by
  unfold out0_7
  simp only [View.ld_unit_zero (S := S1024x784) zero_offsets, View.ld_unit_zero (S := S1x1024) zero_offsets,
    View.ld_unit_zero (S := S1024x1024) zero_offsets, View.ld_unit_zero (S := S10x1024) zero_offsets,
    View.ld_unit_zero (S := S1x10) zero_offsets]
  rw [Cert.KernelIdeal.Value.canon7_eq]
  exact Cert.BodyRow.block_row P0 P1 P2 P3 P4 P5 P6 r o

variable (m : (ℓ : Loc nD τ sig) → Buf (Elt Ideal) ℓ) (ρ : Dev nD → PrngReg)

/-- The result array: `G` of the argument arrays as launched. -/
abbrev result (c : Dev nD) : S65536x10.Idx → EReal :=
  G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

/-- WHAT POINT `t` WRITES BACK is block `t` of `G` of the argument arrays. -/
theorem flushed_eq (c : Dev nD) (t : Fin cfg0.N) :
    (dats m 0 c).flushed 7 t = ((cfg0.win 7).blk t).view.read (Elt Ideal) (result m c) := by
  obtain ⟨-, -, h0, h1⟩ := Cert.BlockRead.moving_index t
  have ht : t.val < 64 := lt_of_lt_of_eq t.isLt (show cfg0.N = 64 from N_0)
  rw [Cert.KernelIdeal.Value.flushed7]
  funext y
  obtain ⟨r, o, rfl⟩ : ∃ (r : Fin 1024) (o : Fin 10), y = ix2 r o :=
    ⟨⟨(y 0).val, (y 0).isLt⟩, ⟨(y 1).val, (y 1).isLt⟩, by coords2⟩
  obtain ⟨R, hR⟩ : ∃ R : Fin 65536, R.val = 1024 * t.val + r.val :=
    ⟨⟨1024 * t.val + r.val, by have := r.isLt; omega⟩, rfl⟩
  show out0_7 (iblk m c 0 t) (iblk m c 1 t) (iblk m c 2 t) (iblk m c 3 t) (iblk m c 4 t) (iblk m c 5 t) (iblk m c 6 t) (ix2 r o) = result m c (((cfg0.win 7).blk t).view.emb (ix2 r o))
  have he : ((cfg0.win 7).blk t).view.emb (ix2 r o) = (ix2 R o : S65536x10.Idx) := by
    funext x; apply Fin.ext
    match x with
    | ⟨0, _⟩ => show win0_7.index t 0 * 1024 + 1 * r.val = R.val; rw [h0, hR]; omega
    | ⟨1, _⟩ => show win0_7.index t 1 * 10 + 1 * o.val = o.val; rw [h1]; omega
  rw [he]
  refine (out_row (iblk m c 0 t) (iblk m c 1 t) (iblk m c 2 t) (iblk m c 3 t) (iblk m c 4 t) (iblk m c 5 t) (iblk m c 6 t) r o).trans ?_
  show _ = rowProbs (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) R o
  unfold rowProbs
  have hx : ∀ k : Fin 784, (iblk m c 0 t : Vec Ideal S1024x784 .f32) (ix2 r k) = pixel (m ((c : Thread nD τ).loc main_arg0)) R k :=
    fun k => Cert.BlockRead.image_block m c t r k R hR
  simp only [hx, Cert.BlockRead.weights1_block m c t, Cert.BlockRead.bias1_block m c t, Cert.BlockRead.weights2_block m c t,
    Cert.BlockRead.bias2_block m c t, Cert.BlockRead.weights3_block m c t, Cert.BlockRead.bias3_block m c t]

/-- Row `R` of the result is in the block of point `R / 1024`: the written-back blocks cover the array. -/
theorem cover (c : Dev nD) (i : S65536x10.Idx) :
    ∃ t : Fin cfg0.N, (cfg0.win 7).flush t = true ∧ i ∈ ((cfg0.win 7).blk t).view.set := by
  have hi0 : (i 0).val < 65536 := (i 0).isLt
  have hi1 : (i 1).val < 10 := (i 1).isLt
  obtain ⟨t, ht⟩ : ∃ t : Fin cfg0.N, t.val = (i 0).val / 1024 :=
    ⟨⟨(i 0).val / 1024, by rw [show cfg0.N = 64 from N_0]; omega⟩, rfl⟩
  obtain ⟨-, -, h0, h1⟩ := Cert.BlockRead.moving_index t
  refine ⟨t, flush0_7 t, ?_⟩
  show i ∈ ((View.whole main_v8).slice (win0_7.rect t)).set
  rw [View.set_slice_whole, Rect.mem_set_unit]
  intro a
  match a with
  | ⟨0, _⟩ =>
    show win0_7.index t 0 * 1024 ≤ (i 0).val ∧ (i 0).val < win0_7.index t 0 * 1024 + 1024
    rw [h0, ht]; omega
  | ⟨1, _⟩ =>
    show win0_7.index t 1 * 10 ≤ (i 1).val ∧ (i 1).val < win0_7.index t 1 * 10 + 10
    rw [h1]; omega

/-- THE RESULT ARRAY after the run is `G` of the argument arrays. -/
theorem final (c : Dev nD) : (dats m 0 c).arrAt 7 cfg0.N = result m c :=
  (dats m 0 c).arrAt_eq_of_cover 7 (result m c) (fun t _ => flushed_eq m c t) (cover c)

/-- The kernel's run, read: the result array at `G` of the arguments, the arguments unchanged. -/
theorem run : θ_run defs (onTc (τ := τ) (main (F := Ideal))) ⟨m, fun _ => 0, ρ⟩ fun r => ∀ c : Dev nD,
      r.2.mem ((c : Thread nD τ).loc main_v8) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩)
    (Cert.KernelIdeal.Value.run_blocks m ρ)

end Cert.KernelRun

end
-- ==== Proof.lean ====
/-
  A three-layer perceptron with a softmax head, computed on 65536 images of 28 × 28 pixels: the kernel tiles the batch
  into 64 blocks of 1024 rows and runs the three matrix products, the two floors at zero and the softmax of the ten
  scores on each block with the weights held whole; the reference computes the same on the whole batch at once.

  Over the extended reals the two compute one function of the argument arrays, `RowNet.G`: row `R` of the result
  depends on image `R` alone, through the same sums of the same products (a product into a zero accumulator is the bare
  sum; a transposed weight read at `(k, j)` is the weight at `(j, k)`; a change of float format is the identity), the same
  largest score (the reference takes the maximum with the fold's starting value once more, which changes nothing) and
  the same quotient. No law used needs a finite operand, so the precondition is never opened.

  The frames of the two kernels are the generated frame certificates; the reference's frame is its generated run with
  the result dropped; the idealization rewrote nothing, so `preserves` has nothing to state.
-/
import proofs.«160024_j60687887893042_2_alg».proof.Defs
import proofs.«160024_j60687887893042_2_alg».proof.Proof.Gen.Kernel
import proofs.«160024_j60687887893042_2_alg».proof.Proof.Gen.Kernel.Skeleton
import proofs.«160024_j60687887893042_2_alg».proof.Proof.Gen.Kernel.Launch
import proofs.«160024_j60687887893042_2_alg».proof.Proof.Gen.Kernel.Points
import proofs.«160024_j60687887893042_2_alg».proof.Proof.Gen.Kernel.Frame
import proofs.«160024_j60687887893042_2_alg».proof.Proof.Gen.KernelIdeal
import proofs.«160024_j60687887893042_2_alg».proof.Proof.Gen.KernelIdeal.Skeleton
import proofs.«160024_j60687887893042_2_alg».proof.Proof.Gen.KernelIdeal.Launch
import proofs.«160024_j60687887893042_2_alg».proof.Proof.Gen.KernelIdeal.Points
import proofs.«160024_j60687887893042_2_alg».proof.Proof.Gen.KernelIdeal.Frame
import proofs.«160024_j60687887893042_2_alg».proof.Proof.Gen.ReferenceIdeal
import proofs.«160024_j60687887893042_2_alg».proof.Proof.Gen.KernelIdeal.Value
import proofs.«160024_j60687887893042_2_alg».proof.Proof.Gen.ReferenceIdeal.Run
import proofs.«160024_j60687887893042_2_alg».proof.Proof.Gen.ReferenceIdeal.Read
import proofs.«160024_j60687887893042_2_alg».proof.Proof.Gen.Pre_finite_inputs
import proofs.«160024_j60687887893042_2_alg».proof.Proof.RefRow
import proofs.«160024_j60687887893042_2_alg».proof.Proof.KernelRun
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at `G` of the argument arrays: the kernel's by the blocks it writes back, the
    reference's because its last stage is `G`; the arguments agree, so the two arrays are equal entry by entry. -/
theorem algebraic : Cert.algebraic_KernelIdeal_ReferenceIdeal := by
  intro m ρ m' ρ' _ hagree
  refine ⟨fun c => Cert.KernelRun.result m c, Cert.KernelRun.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7⟩ := hagree c
  rw [Cert.ReferenceIdeal.Read.val_main_v29_eq, Cert.RefRow.stage_eq_G, e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
